-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x41 : Shape := ⟨2, ![128, 41]⟩
abbrev S41 : Shape := ⟨1, ![41]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x41 : S_.BroadcastsInDim S128x41 (![] : Fin 0 → Fin S128x41.rank)
  reducesTo_S128x41_S_d0_1 : S128x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg5 : FVec F S128x41 .f32) (main_arg6 : FVec F S128x41 .f32) (main_arg7 : FVec F S41 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x41 .f32 := Host.absf main_arg5
  let main_cst_6 : FVec F S_ .f32 := constant S_ .f32 0x7F800000#32
  let main_v20 : FVec F S128x41 .f32 := broadcastInDim S128x41 ![] bcast_S_S128x41 main_cst_6
  let main_v21 : IVec S128x41 1 := cmpf .olt main_v19 main_v20
  let main_c_7 : IVec S_ 1 := constantI S_ 1 1#1
  let main_v22 : IVec S_ 1 := (fun x v => Host.reduce IntOp.andi x v reducesTo_S128x41_S_d0_1 h_S_) main_v21 main_c_7
  let main_v23 : IVec S_ 1 := andi main_v18 main_v22
  let main_v24 : FVec F S128x41 .f32 := Host.absf main_arg6
  let main_cst_8 : FVec F S_ .f32 := constant S_ .f32 0x7F800000#32
  let main_v25 : FVec F S128x41 .f32 := broadcastInDim S128x41 ![] bcast_S_S128x41 main_cst_8
  let main_v26 : IVec S128x41 1 := cmpf .olt main_v24 main_v25
  let main_c_9 : IVec S_ 1 := constantI S_ 1 1#1
  let main_v27 : IVec S_ 1 := (fun x v => Host.reduce IntOp.andi x v reducesTo_S128x41_S_d0_1 h_S_) main_v26 main_c_9
  let main_v28 : IVec S_ 1 := andi main_v23 main_v27
  let main_v29 : FVec F S41 .f32 := Host.absf main_arg7
  let main_cst_10 : FVec F S_ .f32 := constant S_ .f32 0x7F800000#32
  let main_v30 : FVec F S41 .f32 := broadcastInDim S41 ![] bcast_S_S41 main_cst_10
  let main_v31 : IVec S41 1 := cmpf .olt main_v29 main_v30
  let main_c_11 : IVec S_ 1 := constantI S_ 1 1#1
  let main_v32 : IVec S_ 1 := (fun x v => Host.reduce IntOp.andi x v reducesTo_S41_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x41 .f32) (main_arg6 : FVec F S128x41 .f32) (main_arg7 : FVec F S41 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x41 : Shape := ⟨2, ![128, 41]⟩
abbrev S41 : Shape := ⟨1, ![41]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S1x41 : Shape := ⟨2, ![1, 41]⟩
abbrev S100000x41 : Shape := ⟨2, ![100000, 41]⟩
abbrev S4000x41 : Shape := ⟨2, ![4000, 41]⟩

abbrev nBuf : Space → Nat
  | .hbm => 53
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x41, .f32⟩
  | .hbm, ⟨6, _⟩ => ⟨S128x41, .f32⟩
  | .hbm, ⟨7, _⟩ => ⟨S41, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S128x128, .bf16⟩
  | .hbm, ⟨34, _⟩ => ⟨S128x128, .bf16⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S1x41, .f32⟩
  | .hbm, ⟨50, _⟩ => ⟨S128x41, .bf16⟩
  | .hbm, ⟨51, _⟩ => ⟨S128x41, .bf16⟩
  | .hbm, ⟨52, _⟩ => ⟨S100000x41, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x41, .bf16⟩
  | .local _ .vmem, ⟨18, _⟩ => ⟨S128x41, .bf16⟩
  | .local _ .vmem, ⟨19, _⟩ => ⟨S1x41, .f32⟩
  | .local _ .vmem, ⟨20, _⟩ => ⟨S4000x41, .f32⟩
  | .local _ .vmem, ⟨21, _⟩ => ⟨S4000x41, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x41 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x41 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x41 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x41 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  shapeCasts_S128_S1x128 : S128.ShapeCasts S1x128
  bitsLt_bf16_f32 : FTy.bits .bf16 < FTy.bits .f32
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S41_S1x41 : S41.ShapeCasts S1x41
  inb_S128x41_S128x41_0_0 : ∀ a, (![0, 0] : Fin 2 → Nat) a + S128x41.size a ≤ S128x41.size a
  h_S128x41 : 0 < S128x41.numel
  shapeCasts_S128x41_S128x41 : S128x41.ShapeCasts S128x41
  inb_S1x41_S1x41_0_0 : ∀ a, (![0, 0] : Fin 2 → Nat) a + S1x41.size a ≤ S1x41.size a
  h_S1x41 : 0 < S1x41.numel
  shapeCasts_S1x41_S1x41 : S1x41.ShapeCasts S1x41
  broadcasts_S1x41_S4000x41 : S1x41.Broadcasts S4000x41
  inb_S4000x41_S4000x41_0_0 : ∀ a, (![0, 0] : Fin 2 → Nat) a + S4000x41.size a ≤ S4000x41.size a
  h_S4000x41 : 0 < S4000x41.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x41_S4000x41_1_0_0_1_n_n_wf : DotDims.WF S4000x128 S128x41 S4000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x41.size a ≤ S128x41.size a
  hwx1_3 : ∀ i : grid1.Coords, EltTy.bits .bf16 = 32 ∨ (Rect.block (s := S128x41) S128x41.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x41.size a ≤ S128x41.size a
  hwx1_4 : ∀ i : grid1.Coords, EltTy.bits .bf16 = 32 ∨ (Rect.block (s := S128x41) S128x41.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x41.size a ≤ S1x41.size a
  hwx1_5 : ∀ i : grid1.Coords, EltTy.bits .f32 = 32 ∨ (Rect.block (s := S1x41) S1x41.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x41.size a ≤ S100000x41.size a
  hwx1_6 : ∀ i : grid1.Coords, EltTy.bits .f32 = 32 ∨ (Rect.block (s := S100000x41) S4000x41.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x41_S4000x41_1_0_0_1_n_n : DotDims S4000x128 S128x41 S4000x41 where
  lhsContracting := [1]
  rhsContracting := [0]
  lhsNonContracting := [0]
  rhsNonContracting := [1]
  lhsBatch := []
  rhsBatch := []
  wf := dot_S4000x128_S128x41_S4000x41_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x41.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x41.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x41.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S4000x41.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x41 : Shape := ⟨2, ![128, 41]⟩
abbrev S41 : Shape := ⟨1, ![41]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x41 : Shape := ⟨2, ![100000, 41]⟩
abbrev S1x41 : Shape := ⟨2, ![1, 41]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x41, .f32⟩
  | .hbm, ⟨6, _⟩ => ⟨S128x41, .f32⟩
  | .hbm, ⟨7, _⟩ => ⟨S41, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x41, .f32⟩
  | .hbm, ⟨72, _⟩ => ⟨S100000x41, .f32⟩
  | .hbm, ⟨73, _⟩ => ⟨S100000x41, .f32⟩
  | .hbm, ⟨74, _⟩ => ⟨S1x41, .f32⟩
  | .hbm, ⟨75, _⟩ => ⟨S100000x41, .f32⟩
  | .hbm, ⟨76, _⟩ => ⟨S100000x41, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x41_S100000x41_1_0_0_1_n_n_wf : DotDims.WF S100000x128 S128x41 S100000x41 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x41_S100000x41_1_0_0_1_n_n : DotDims S100000x128 S128x41 S100000x41 where
  lhsContracting := [1]
  rhsContracting := [0]
  lhsNonContracting := [0]
  rhsNonContracting := [1]
  lhsBatch := []
  rhsBatch := []
  wf := dot_S100000x128_S128x41_S100000x41_1_0_0_1_n_n_wf

class Facts : Prop extends Facts₀ where

variable [Facts]
-- ==== Proof.KernelRun.lean ====
/-
  The kernel program's run, with its result. Every weakly fair execution of the program ends, nothing faulting, with
  the argument arrays as launched and the result array holding what the last boundary's contents give it: the program
  is host operations, the first kernel region, host operations again and the second kernel region, and the contents of
  every buffer at each boundary are the fold of those four steps from the launch memory.
-/
import proofs.«169006_j39822936768930_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.Spec.lean ====
/-
  One layer of neighbourhood averaging followed by two linear maps, entry by entry.

  A node r has a feature row x(r, ·) of length 128, the sum agg(r, ·) of its in-neighbours' rows, and an in-degree
  d(r, 0) kept as a column. The layer's entry at (r, q) is

      Σ_k (agg(r,k) / max(d(r,0), 1)) · wl(k,q)  +  Σ_k x(r,k) · wr(k,q)  +  b(0,q),

  the mean of the neighbours through one matrix, the node's own row through another, and a bias. Only row r of x, agg
  and d enters it, and only column q of wl, wr and b: the layer acts row by row, so the same entry is computed from a
  block of rows as from the whole array. The hidden layer takes the maximum with zero of it; the output layer does not.
-/
import Idealize.ShloMosaic.PureOps.Ideal
import Idealize.ShloMosaic.Lib.ValueIdx

noncomputable section

open scoped BigOperators

namespace Cert.Sage

open Idealize.ShloMosaic Idealize.ShloMosaic.ValueIdx

/-- The number one, as the programs spell it. -/
abbrev one : EReal := Ideal.ofBits .f32 0x3F800000#32
/-- The number zero, as the programs spell it. -/
abbrev zero : EReal := Ideal.ofBits .f32 0x00000000#32

/-- The layer's entry at row r and column q, from R rows of features, neighbour sums and degrees. -/
def cell {R D : Nat} (x agg : (⟨2, ![R, 128]⟩ : Shape).Idx → EReal) (d : (⟨2, ![R, 1]⟩ : Shape).Idx → EReal)
    (wl wr : (⟨2, ![128, D]⟩ : Shape).Idx → EReal) (b : (⟨2, ![1, D]⟩ : Shape).Idx → EReal) (r : Fin R) (q : Fin D) : EReal :=
  (∑ k : Fin 128, Ideal.div (agg (ix2 r k)) (max (d (ix2 r (0 : Fin 1))) one) * wl (ix2 k q))
    + (∑ k : Fin 128, x (ix2 r k) * wr (ix2 k q)) + b (ix2 (0 : Fin 1) q)

/-- The entry depends on row r of the node data and on column q of the weights only: two families that agree there
    give the same entry, whatever their numbers of rows. -/
theorem cell_congr {R R' D : Nat}
    {x agg : (⟨2, ![R, 128]⟩ : Shape).Idx → EReal} {d : (⟨2, ![R, 1]⟩ : Shape).Idx → EReal}
    {wl wr : (⟨2, ![128, D]⟩ : Shape).Idx → EReal} {b : (⟨2, ![1, D]⟩ : Shape).Idx → EReal}
    {x' agg' : (⟨2, ![R', 128]⟩ : Shape).Idx → EReal} {d' : (⟨2, ![R', 1]⟩ : Shape).Idx → EReal}
    {wl' wr' : (⟨2, ![128, D]⟩ : Shape).Idx → EReal} {b' : (⟨2, ![1, D]⟩ : Shape).Idx → EReal}
    {r : Fin R} {r' : Fin R'} {q q' : Fin D}
    (hx : ∀ k : Fin 128, x' (ix2 r' k) = x (ix2 r k)) (ha : ∀ k : Fin 128, agg' (ix2 r' k) = agg (ix2 r k))
    (hd : d' (ix2 r' (0 : Fin 1)) = d (ix2 r (0 : Fin 1)))
    (hwl : ∀ k : Fin 128, wl' (ix2 k q') = wl (ix2 k q)) (hwr : ∀ k : Fin 128, wr' (ix2 k q') = wr (ix2 k q))
    (hb : b' (ix2 (0 : Fin 1) q') = b (ix2 (0 : Fin 1) q)) :
    cell x' agg' d' wl' wr' b' r' q' = cell x agg d wl wr b r q := by
  unfold cell
  simp only [hx, ha, hd, hwl, hwr, hb]

/-- The hidden layer over R rows: the entry, cut off below at zero. -/
def hidden {R : Nat} (x agg : (⟨2, ![R, 128]⟩ : Shape).Idx → EReal) (d : (⟨2, ![R, 1]⟩ : Shape).Idx → EReal)
    (wl wr : (⟨2, ![128, 128]⟩ : Shape).Idx → EReal) (b : (⟨2, ![1, 128]⟩ : Shape).Idx → EReal) :
    (⟨2, ![R, 128]⟩ : Shape).Idx → EReal :=
  fun i => max (cell x agg d wl wr b (i 0) (i 1)) zero

/-- The output layer over R rows: the entry itself, 41 columns. -/
def outer {R : Nat} (x agg : (⟨2, ![R, 128]⟩ : Shape).Idx → EReal) (d : (⟨2, ![R, 1]⟩ : Shape).Idx → EReal)
    (wl wr : (⟨2, ![128, 41]⟩ : Shape).Idx → EReal) (b : (⟨2, ![1, 41]⟩ : Shape).Idx → EReal) :
    (⟨2, ![R, 41]⟩ : Shape).Idx → EReal :=
  fun i => cell x agg d wl wr b (i 0) (i 1)

theorem hidden_ix2 {R : Nat} (x agg : (⟨2, ![R, 128]⟩ : Shape).Idx → EReal) (d : (⟨2, ![R, 1]⟩ : Shape).Idx → EReal)
    (wl wr : (⟨2, ![128, 128]⟩ : Shape).Idx → EReal) (b : (⟨2, ![1, 128]⟩ : Shape).Idx → EReal) (r : Fin R) (q : Fin 128) :
    hidden x agg d wl wr b (ix2 r q) = max (cell x agg d wl wr b r q) zero := rfl

theorem outer_ix2 {R : Nat} (x agg : (⟨2, ![R, 128]⟩ : Shape).Idx → EReal) (d : (⟨2, ![R, 1]⟩ : Shape).Idx → EReal)
    (wl wr : (⟨2, ![128, 41]⟩ : Shape).Idx → EReal) (b : (⟨2, ![1, 41]⟩ : Shape).Idx → EReal) (r : Fin R) (q : Fin 41) :
    outer x agg d wl wr b (ix2 r q) = cell x agg d wl wr b r q := rfl

end Cert.Sage

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.Body.lean ====
/-
  What one grid point computes. The body loads a block of 4000 rows of features, of neighbour sums and of degrees, the
  two weight matrices and the bias row, and stores one block of 4000 rows: at (p, q) the layer's entry of row p of the
  block and column q. The two matrix products start from a zero accumulator, so each is the plain sum over the 128
  contracted coordinates; the change of float format on the way into them is the identity on exact values; the degree
  column is spread over the 128 columns and the bias row over the 4000 rows.
-/
import proofs.«169006_j39822936768930_1_alg».proof.Proof.Gen.KernelIdeal.Skeleton
import proofs.«169006_j39822936768930_1_alg».proof.Proof.Spec
import proofs.«169006_j39822936768930_1_alg».proof.Proof.LibPlainDot
import proofs.«169006_j39822936768930_1_alg».proof.Proof.LibKeepdims
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx Cert.Sage

/-- The product of a 4000×128 block with a 128×128 matrix, from zero, at (p, q). -/
theorem mm128 (a : FVec Ideal S4000x128 .bf16) (w : FVec Ideal S128x128 .bf16) (p : Fin 4000) (q : Fin 128) :
    matmul dot_S4000x128_S128x128_S4000x128_1_0_0_1_n_n none a w (constant (F := Ideal) S4000x128 .f32 0x00000000#32) (ix2 p q)
      = ∑ k : Fin 128, a (ix2 p k) * w (ix2 k q) :=
  PlainDot.matmul_zero_apply (M := 4000) (K := 128) (N := 128) none a w p q

/-- The product of a 4000×128 block with a 128×41 matrix, from zero, at (p, q). -/
theorem mm41 (a : FVec Ideal S4000x128 .bf16) (w : FVec Ideal S128x41 .bf16) (p : Fin 4000) (q : Fin 41) :
    matmul dot_S4000x128_S128x41_S4000x41_1_0_0_1_n_n none a w (constant (F := Ideal) S4000x41 .f32 0x00000000#32) (ix2 p q)
      = ∑ k : Fin 128, a (ix2 p k) * w (ix2 k q) :=
  PlainDot.matmul_zero_apply (M := 4000) (K := 128) (N := 41) none a w p q

/-- The degree column spread over the 128 columns reads the column's entry of the row. -/
theorem col128 (v : FVec Ideal S4000x1 .f32) (p : Fin 4000) (q : Fin 128) :
    broadcastTo S4000x128 v broadcasts_S4000x1_S4000x128 (ix2 p q) = v (ix2 p (0 : Fin 1)) :=
  Keepdims.broadcastTo_a1_ab_apply (a := 4000) (b := 128) v broadcasts_S4000x1_S4000x128 p q

/-- The bias row spread over the 4000 rows reads the row's entry of the column. -/
theorem row128 (v : FVec Ideal S1x128 .f32) (p : Fin 4000) (q : Fin 128) :
    broadcastTo S4000x128 v broadcasts_S1x128_S4000x128 (ix2 p q) = v (ix2 (0 : Fin 1) q) :=
  broadcastTo_1b_ab_apply (a := 4000) (b := 128) v broadcasts_S1x128_S4000x128 p q

theorem row41 (v : FVec Ideal S1x41 .f32) (p : Fin 4000) (q : Fin 41) :
    broadcastTo S4000x41 v broadcasts_S1x41_S4000x41 (ix2 p q) = v (ix2 (0 : Fin 1) q) :=
  broadcastTo_1b_ab_apply (a := 4000) (b := 41) v broadcasts_S1x41_S4000x41 p q

/-- The hidden layer's block: the stored value is the hidden layer of the loaded blocks. -/
theorem pay0_eq (v0 : Vec Ideal S4000x128 .f32) (v2 : Vec Ideal S4000x1 .f32) (v8 : Vec Ideal S4000x128 .f32)
    (v11 v14 : Vec Ideal S128x128 .bf16) (v18 : Vec Ideal S1x128 .f32) :
    k0_pay1 (F := Ideal) v0 v2 v8 v11 v14 v18 = hidden (R := 4000) v8 v0 v2 v11 v14 v18 := by
  funext j
  obtain ⟨p, q, rfl⟩ : ∃ (p : Fin 4000) (q : Fin 128), j = ix2 p q := ⟨j 0, j 1, eq_ix2 j⟩
  rw [hidden_ix2]
  unfold k0_pay1 cell
  simp only [maximumf_apply, addf_apply, broadcast_apply, mm128, col128, row128, truncf_apply, divf_apply,
    shapeCast_self]
  rfl

/-- The output layer's block: the stored value is the output layer of the loaded blocks. -/
theorem pay1_eq (v0 : Vec Ideal S4000x128 .f32) (v2 : Vec Ideal S4000x1 .f32) (v8 : Vec Ideal S4000x128 .f32)
    (v12 v15 : Vec Ideal S128x41 .bf16) (v19 : Vec Ideal S1x41 .f32) :
    k1_pay1 (F := Ideal) v0 v2 v8 v12 v15 v19 = outer (R := 4000) v8 v0 v2 v12 v15 v19 := by
  funext j
  obtain ⟨p, q, rfl⟩ : ∃ (p : Fin 4000) (q : Fin 41), j = ix2 p q := ⟨j 0, j 1, eq_ix2 j⟩
  rw [outer_ix2]
  unfold k1_pay1 cell
  simp only [addf_apply, broadcast_apply, mm41, col128, row41, truncf_apply, divf_apply, maximumf_apply,
    shapeCast_self]
  rfl

end Cert.KernelIdeal.Body

end
-- ==== Proof.Blocks0.lean ====
/-
  The hidden layer's array after the first kernel region, whatever the region finds in its operands.

  The region walks 25 grid points; point t fetches rows 4000·t … 4000·t + 3999 of the features, of the neighbour sums and
  of the degree column, the whole of the two weight matrices and of the bias row, and writes back rows 4000·t … of the
  result. Since the layer acts row by row, what point t writes is exactly those rows of the hidden layer of the WHOLE
  operand arrays; the 25 blocks of rows cover the 100000 rows, so the result array ends as that one function.
-/
import proofs.«169006_j39822936768930_1_alg».proof.Proof.Gen.KernelIdeal.Frame
import proofs.«169006_j39822936768930_1_alg».proof.Proof.Body
import proofs.«169006_j39822936768930_1_alg».proof.Proof.Spec
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.ShloMosaic.ValueIdx
open Idealize.ShloMosaic.Pipeline (Dat)
open Cert.Sage

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the three row-blocked operands and the result at block row t, the
    weights and the bias at their one block. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The hidden layer of the operand arrays as the region finds them. -/
def H (c : Dev nD) : S100000x128.Idx → EReal :=
  hidden (R := 100000) (V c main_arg0) (V c main_v18) (V c main_v8) (V c main_v20) (V c main_v21) (V c main_v19)

/-- What point t writes back is block t of the hidden layer of the whole operand arrays. -/
theorem flushed (c : Dev nD) (t : Fin cfg0.N) :
    (dat0 V c).flushed 6 t = ((cfg0.win 6).blk t).view.read (Elt Ideal) (H V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz,
    View.ld_unit_zero (S := S128x128) hz, View.ld_unit_zero (S := S1x128) hz]
  rw [Body.pay0_eq]
  obtain ⟨e00, e01, e10, e11, e20, e21, e30, e31, e40, e41, e50, e51, e60, e61⟩ := idx t
  funext y
  show max (cell (iblk0 V c 0 t) (iblk0 V c 1 t) (iblk0 V c 2 t) (iblk0 V c 3 t) (iblk0 V c 4 t) (iblk0 V c 5 t) (y 0) (y 1)) zero
    = max (cell (V c main_arg0) (V c main_v18) (V c main_v8) (V c main_v20) (V c main_v21) (V c main_v19)
        ((((cfg0.win 6).blk t).view.emb y) 0) ((((cfg0.win 6).blk t).view.emb y) 1)) zero
  refine congrArg (fun z => max z zero) (cell_congr ?_ ?_ ?_ ?_ ?_ ?_)
  · intro k
    show V c main_arg0 (((cfg0.win 0).blk t).view.emb (ix2 (y 0) k)) = V c main_arg0 (ix2 ((((cfg0.win 6).blk t).view.emb y) 0) k)
    refine congrArg _ (funext fun a => Fin.ext ?_)
    match a with
    | ⟨0, _⟩ => show win0_0.index t (0 : Fin 2) * 4000 + 1 * (y 0).val = win0_6.index t (0 : Fin 2) * 4000 + 1 * (y 0).val; omega
    | ⟨1, _⟩ => show win0_0.index t (1 : Fin 2) * 128 + 1 * k.val = k.val; omega
  · intro k
    show V c main_v18 (((cfg0.win 1).blk t).view.emb (ix2 (y 0) k)) = V c main_v18 (ix2 ((((cfg0.win 6).blk t).view.emb y) 0) k)
    refine congrArg _ (funext fun a => Fin.ext ?_)
    match a with
    | ⟨0, _⟩ => show win0_1.index t (0 : Fin 2) * 4000 + 1 * (y 0).val = win0_6.index t (0 : Fin 2) * 4000 + 1 * (y 0).val; omega
    | ⟨1, _⟩ => show win0_1.index t (1 : Fin 2) * 128 + 1 * k.val = k.val; omega
  · show V c main_v8 (((cfg0.win 2).blk t).view.emb (ix2 (y 0) (0 : Fin 1))) = V c main_v8 (ix2 ((((cfg0.win 6).blk t).view.emb y) 0) (0 : Fin 1))
    refine congrArg _ (funext fun a => Fin.ext ?_)
    match a with
    | ⟨0, _⟩ => show win0_2.index t (0 : Fin 2) * 4000 + 1 * (y 0).val = win0_6.index t (0 : Fin 2) * 4000 + 1 * (y 0).val; omega
    | ⟨1, _⟩ => show win0_2.index t (1 : Fin 2) * 1 + 1 * 0 = 0; omega
  · intro k
    show V c main_v20 (((cfg0.win 3).blk t).view.emb (ix2 k (y 1))) = V c main_v20 (ix2 k ((((cfg0.win 6).blk t).view.emb y) 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (y 1).val = win0_6.index t (1 : Fin 2) * 128 + 1 * (y 1).val; omega
  · intro k
    show V c main_v21 (((cfg0.win 4).blk t).view.emb (ix2 k (y 1))) = V c main_v21 (ix2 k ((((cfg0.win 6).blk t).view.emb y) 1))
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * (y 1).val = win0_6.index t (1 : Fin 2) * 128 + 1 * (y 1).val; omega
  · show V c main_v19 (((cfg0.win 5).blk t).view.emb (ix2 (0 : Fin 1) (y 1))) = V c main_v19 (ix2 (0 : Fin 1) ((((cfg0.win 6).blk t).view.emb y) 1))
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * (y 1).val = win0_6.index t (1 : Fin 2) * 128 + 1 * (y 1).val; omega

/-- An index of the result array is in point t's block iff each coordinate is in the block's range on its axis. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v22).slice (win0_6.rect t)).set ↔ _
  rw [View.set_slice_whole, Rect.mem_set_unit]
  exact Iff.rfl

/-- Row r lies in the block of point r / 4000: the 25 blocks of rows cover the array. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 4000 < cfg0.N := lt_of_lt_of_eq (by omega : (i 0).val / 4000 < 25) N_0.symm
  obtain ⟨_, _, _, _, _, _, _, _, _, _, _, _, e60, e61⟩ := idx ⟨(i 0).val / 4000, hlt⟩
  have e60' : win0_6.index ⟨(i 0).val / 4000, hlt⟩ (0 : Fin 2) = (i 0).val / 4000 := e60
  refine ⟨⟨(i 0).val / 4000, hlt⟩, flush0_6 _, ?_⟩
  rw [mem_blk]
  intro a
  match a with
  | ⟨0, _⟩ =>
    show win0_6.index ⟨(i 0).val / 4000, hlt⟩ (0 : Fin 2) * 4000 ≤ (i 0).val
      ∧ (i 0).val < win0_6.index ⟨(i 0).val / 4000, hlt⟩ (0 : Fin 2) * 4000 + 4000
    omega
  | ⟨1, _⟩ =>
    show win0_6.index ⟨(i 0).val / 4000, hlt⟩ (1 : Fin 2) * 128 ≤ (i 1).val
      ∧ (i 1).val < win0_6.index ⟨(i 0).val / 4000, hlt⟩ (1 : Fin 2) * 128 + 128
    omega

/-- The result array after the region is the hidden layer of the operand arrays as the region found them. -/
theorem final (c : Dev nD) : (dat0 V c).arrAt 6 cfg0.N = H V c :=
  (dat0 V c).arrAt_eq_of_cover 6 (H V c) (fun t _ => flushed V c t) cover

end Cert.KernelIdeal.Blocks0

end
-- ==== Proof.Blocks1.lean ====
/-
  The output layer's array after the second kernel region, whatever the region finds in its operands.

  As in the first region, point t of 25 fetches rows 4000·t … 4000·t + 3999 of the hidden features, of their neighbour
  sums and of the degree column, and the whole of the two 128×41 weight matrices and of the bias row, and writes back
  those rows of the result. The layer acts row by row, so each written block is those rows of the output layer of the
  whole operand arrays, and the 25 blocks cover the 100000 rows.
-/
import proofs.«169006_j39822936768930_1_alg».proof.Proof.Gen.KernelIdeal.Frame
import proofs.«169006_j39822936768930_1_alg».proof.Proof.Body
import proofs.«169006_j39822936768930_1_alg».proof.Proof.Spec
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.ShloMosaic.ValueIdx
open Idealize.ShloMosaic.Pipeline (Dat)
open Cert.Sage

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point t: the three row-blocked operands and the result at block row t, the
    weights and the bias at their one block. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The output layer of the operand arrays as the region finds them. -/
def H (c : Dev nD) : S100000x41.Idx → EReal :=
  outer (R := 100000) (V c main_v22) (V c main_v32) (V c main_v8) (V c main_v34) (V c main_v35) (V c main_v33)

/-- What point t writes back is block t of the output layer of the whole operand arrays. -/
theorem flushed (c : Dev nD) (t : Fin cfg1.N) :
    (dat1 V c).flushed 6 t = ((cfg1.win 6).blk t).view.read (Elt Ideal) (H V c) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz,
    View.ld_unit_zero (S := S128x41) hz, View.ld_unit_zero (S := S1x41) hz]
  rw [Body.pay1_eq]
  obtain ⟨e00, e01, e10, e11, e20, e21, e30, e31, e40, e41, e50, e51, e60, e61⟩ := idx t
  funext y
  show cell (iblk1 V c 0 t) (iblk1 V c 1 t) (iblk1 V c 2 t) (iblk1 V c 3 t) (iblk1 V c 4 t) (iblk1 V c 5 t) (y 0) (y 1)
    = cell (V c main_v22) (V c main_v32) (V c main_v8) (V c main_v34) (V c main_v35) (V c main_v33)
        ((((cfg1.win 6).blk t).view.emb y) 0) ((((cfg1.win 6).blk t).view.emb y) 1)
  refine (cell_congr ?_ ?_ ?_ ?_ ?_ ?_)
  · intro k
    show V c main_v22 (((cfg1.win 0).blk t).view.emb (ix2 (y 0) k)) = V c main_v22 (ix2 ((((cfg1.win 6).blk t).view.emb y) 0) k)
    refine congrArg _ (funext fun a => Fin.ext ?_)
    match a with
    | ⟨0, _⟩ => show win1_0.index t (0 : Fin 2) * 4000 + 1 * (y 0).val = win1_6.index t (0 : Fin 2) * 4000 + 1 * (y 0).val; omega
    | ⟨1, _⟩ => show win1_0.index t (1 : Fin 2) * 128 + 1 * k.val = k.val; omega
  · intro k
    show V c main_v32 (((cfg1.win 1).blk t).view.emb (ix2 (y 0) k)) = V c main_v32 (ix2 ((((cfg1.win 6).blk t).view.emb y) 0) k)
    refine congrArg _ (funext fun a => Fin.ext ?_)
    match a with
    | ⟨0, _⟩ => show win1_1.index t (0 : Fin 2) * 4000 + 1 * (y 0).val = win1_6.index t (0 : Fin 2) * 4000 + 1 * (y 0).val; omega
    | ⟨1, _⟩ => show win1_1.index t (1 : Fin 2) * 128 + 1 * k.val = k.val; omega
  · show V c main_v8 (((cfg1.win 2).blk t).view.emb (ix2 (y 0) (0 : Fin 1))) = V c main_v8 (ix2 ((((cfg1.win 6).blk t).view.emb y) 0) (0 : Fin 1))
    refine congrArg _ (funext fun a => Fin.ext ?_)
    match a with
    | ⟨0, _⟩ => show win1_2.index t (0 : Fin 2) * 4000 + 1 * (y 0).val = win1_6.index t (0 : Fin 2) * 4000 + 1 * (y 0).val; omega
    | ⟨1, _⟩ => show win1_2.index t (1 : Fin 2) * 1 + 1 * 0 = 0; omega
  · intro k
    show V c main_v34 (((cfg1.win 3).blk t).view.emb (ix2 k (y 1))) = V c main_v34 (ix2 k ((((cfg1.win 6).blk t).view.emb y) 1))
    refine congrArg _ (funext fun a => Fin.ext ?_)
    match a with
    | ⟨0, _⟩ => show win1_3.index t (0 : Fin 2) * 128 + 1 * k.val = k.val; omega
    | ⟨1, _⟩ => show win1_3.index t (1 : Fin 2) * 41 + 1 * (y 1).val = win1_6.index t (1 : Fin 2) * 41 + 1 * (y 1).val; omega
  · intro k
    show V c main_v35 (((cfg1.win 4).blk t).view.emb (ix2 k (y 1))) = V c main_v35 (ix2 k ((((cfg1.win 6).blk t).view.emb y) 1))
    refine congrArg _ (funext fun a => Fin.ext ?_)
    match a with
    | ⟨0, _⟩ => show win1_4.index t (0 : Fin 2) * 128 + 1 * k.val = k.val; omega
    | ⟨1, _⟩ => show win1_4.index t (1 : Fin 2) * 41 + 1 * (y 1).val = win1_6.index t (1 : Fin 2) * 41 + 1 * (y 1).val; omega
  · show V c main_v33 (((cfg1.win 5).blk t).view.emb (ix2 (0 : Fin 1) (y 1))) = V c main_v33 (ix2 (0 : Fin 1) ((((cfg1.win 6).blk t).view.emb y) 1))
    refine congrArg _ (funext fun a => Fin.ext ?_)
    match a with
    | ⟨0, _⟩ => show win1_5.index t (0 : Fin 2) * 1 + 1 * 0 = 0; omega
    | ⟨1, _⟩ => show win1_5.index t (1 : Fin 2) * 41 + 1 * (y 1).val = win1_6.index t (1 : Fin 2) * 41 + 1 * (y 1).val; omega

/-- An index of the result array is in point t's block iff each coordinate is in the block's range on its axis. -/
theorem mem_blk (t : Fin cfg1.N) (i : S100000x41.Idx) :
    i ∈ ((cfg1.win 6).blk t).view.set ↔ ∀ a : Fin 2, win1_6.index t a * S4000x41.size a ≤ (i a).val ∧ (i a).val < win1_6.index t a * S4000x41.size a + S4000x41.size a := by
  show i ∈ ((View.whole main_v36).slice (win1_6.rect t)).set ↔ _
  rw [View.set_slice_whole, Rect.mem_set_unit]
  exact Iff.rfl

/-- Row r lies in the block of point r / 4000: the 25 blocks of rows cover the array. -/
theorem cover (i : S100000x41.Idx) :
    ∃ t : Fin cfg1.N, (cfg1.win 6).flush t = true ∧ i ∈ ((cfg1.win 6).blk t).view.set := by
  have hi0 : (i 0).val < 100000 := (i 0).isLt
  have hi1 : (i 1).val < 41 := (i 1).isLt
  have hlt : (i 0).val / 4000 < cfg1.N := lt_of_lt_of_eq (by omega : (i 0).val / 4000 < 25) N_1.symm
  obtain ⟨_, _, _, _, _, _, _, _, _, _, _, _, e60, e61⟩ := idx ⟨(i 0).val / 4000, hlt⟩
  have e60' : win1_6.index ⟨(i 0).val / 4000, hlt⟩ (0 : Fin 2) = (i 0).val / 4000 := e60
  refine ⟨⟨(i 0).val / 4000, hlt⟩, flush1_6 _, ?_⟩
  rw [mem_blk]
  intro a
  match a with
  | ⟨0, _⟩ =>
    show win1_6.index ⟨(i 0).val / 4000, hlt⟩ (0 : Fin 2) * 4000 ≤ (i 0).val
      ∧ (i 0).val < win1_6.index ⟨(i 0).val / 4000, hlt⟩ (0 : Fin 2) * 4000 + 4000
    omega
  | ⟨1, _⟩ =>
    show win1_6.index ⟨(i 0).val / 4000, hlt⟩ (1 : Fin 2) * 41 ≤ (i 1).val
      ∧ (i 1).val < win1_6.index ⟨(i 0).val / 4000, hlt⟩ (1 : Fin 2) * 41 + 41
    omega

/-- The result array after the region is the output layer of the operand arrays as the region found them. -/
theorem final (c : Dev nD) : (dat1 V c).arrAt 6 cfg1.N = H V c :=
  (dat1 V c).arrAt_eq_of_cover 6 (H V c) (fun t _ => flushed V c t) cover

end Cert.KernelIdeal.Blocks1

end
-- ==== Proof.HostChain.lean ====
/-
  The part of the graph layer that both programs leave to the host, named once.

  From the edge list (two rows of 1600000 node numbers: sources, then destinations) the host forms
    * the destination of each edge, as a column of indices;
    * the source of each edge with a negative number wrapped round by 100000, as a column of indices;
    * the degree column: into zeros, a one added at each edge's destination;
    * the neighbour sum of a 100000×128 feature array: into zeros, the source's row added at each edge's destination.
  Both programs apply exactly these operations; the proof never opens them, it only needs that equal feature arrays give
  equal neighbour sums.
-/
import proofs.«169006_j39822936768930_1_alg».proof.Proof.Gen.KernelIdeal
import Idealize.ShloMosaic.PureOps.Ideal

noncomputable section

namespace Cert.KernelIdeal.HostChain

open Cert.KernelIdeal Cert.KernelIdeal.Facts₀ Idealize.ShloMosaic

/-- Each edge's destination node, as a column of indices. -/
def dstCol (e : (⟨S2x1600000, .i32⟩ : BufTy).Contents (Elt Ideal)) : (⟨S1600000x1, .i32⟩ : BufTy).Contents (Elt Ideal) :=
  broadcastInDim S1600000x1 ![0] bcast_S1600000_S1600000x1_0
    (shapeCast _ (extractStridedSlice S1x1600000 ![1, 0] e slices_S2x1600000_S1x1600000_1_0) shapeCasts_S1x1600000_S1600000)

/-- Each edge's source node, as a vector of node numbers. -/
def srcVec (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- Each edge's source node, a negative number wrapped round by 100000, as a column of indices. -/
def srcCol (e : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (srcVec e) (broadcastInDim S1600000 ![] bcast_S_S1600000 (constantI S_ 32 0#32)))
      (addi (srcVec e) (broadcastInDim S1600000 ![] bcast_S_S1600000 (constantI S_ 32 100000#32))) (srcVec e))

/-- The in-degree of every node, kept as a column. -/
def degCol (e : (⟨S2x1600000, .i32⟩ : BufTy).Contents (Elt Ideal)) : (⟨S100000x1, .f32⟩ : BufTy).Contents (Elt Ideal) :=
  broadcastInDim S100000x1 ![0] bcast_S100000_S100000x1_0
    (Host.scatterAdd scatter_S100000_S1600000x1_S1600000_n_0_0_1
      (broadcastInDim S100000 ![] bcast_S_S100000 (constant (F := Ideal) S_ .f32 0x00000000#32)) (dstCol e)
      (broadcastInDim S1600000 ![] bcast_S_S1600000 (constant (F := Ideal) S_ .f32 0x3F800000#32)))

/-- The sum, at every node, of the feature rows of its in-neighbours. -/
def nbrSum (x : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 x (srcCol e))

end Cert.KernelIdeal.HostChain

end
-- ==== Proof.Whole.lean ====
/-
  The two-layer network as one function of the eight argument arrays.

  The hidden features are the hidden layer of the node features, their neighbour sums and the degree column; the result
  is the output layer of the hidden features, THEIR neighbour sums and the same degree column. The two bias vectors
  enter as 1×128 and 1×41 rows.
-/
import proofs.«169006_j39822936768930_1_alg».proof.Proof.HostChain
import proofs.«169006_j39822936768930_1_alg».proof.Proof.Spec

noncomputable section

namespace Cert.KernelIdeal.Whole

open Cert.KernelIdeal Cert.KernelIdeal.Facts₀ Cert.KernelIdeal.HostChain Idealize.ShloMosaic Cert.Sage

/-- The hidden features of every node. -/
def hidOf (x : (⟨S100000x128, .f32⟩ : BufTy).Contents (Elt Ideal)) (e : (⟨S2x1600000, .i32⟩ : BufTy).Contents (Elt Ideal))
    (w1l w1r : (⟨S128x128, .f32⟩ : BufTy).Contents (Elt Ideal)) (b1 : (⟨S128, .f32⟩ : BufTy).Contents (Elt Ideal)) :
    (⟨S100000x128, .f32⟩ : BufTy).Contents (Elt Ideal) :=
  hidden (R := 100000) x (nbrSum x e) (degCol e) w1l w1r (shapeCast S1x128 b1 shapeCasts_S128_S1x128)

/-- The network's result for every node. -/
def outOf (x : (⟨S100000x128, .f32⟩ : BufTy).Contents (Elt Ideal)) (e : (⟨S2x1600000, .i32⟩ : BufTy).Contents (Elt Ideal))
    (w1l w1r : (⟨S128x128, .f32⟩ : BufTy).Contents (Elt Ideal)) (b1 : (⟨S128, .f32⟩ : BufTy).Contents (Elt Ideal))
    (w2l w2r : (⟨S128x41, .f32⟩ : BufTy).Contents (Elt Ideal)) (b2 : (⟨S41, .f32⟩ : BufTy).Contents (Elt Ideal)) :
    (⟨S100000x41, .f32⟩ : BufTy).Contents (Elt Ideal) :=
  outer (R := 100000) (hidOf x e w1l w1r b1) (nbrSum (hidOf x e w1l w1r b1) e) (degCol e) w2l w2r
    (shapeCast S1x41 b2 shapeCasts_S41_S1x41)

end Cert.KernelIdeal.Whole

end
-- ==== Proof.KernelValue.lean ====
/-
  What the kernel program's result array holds: the network's function of the eight arguments.

  The program's buffer contents are followed through its four steps. The host operations before the first region leave
  the neighbour sums of the features, the degree column, the two weight matrices (a change of float format only) and the
  bias as a row; the first region leaves the hidden features in its result array and nothing else changed; the host
  operations between the regions form the hidden features' neighbour sums from that array; the second region leaves the
  output layer of those in the program's result.
-/
import proofs.«169006_j39822936768930_1_alg».proof.Proof.Gen.KernelIdeal.Frame
import proofs.«169006_j39822936768930_1_alg».proof.Proof.Blocks0
import proofs.«169006_j39822936768930_1_alg».proof.Proof.Blocks1
import proofs.«169006_j39822936768930_1_alg».proof.Proof.Whole
import Idealize.ShloMosaic.Lib.StableHlo.Run

set_option maxRecDepth 16384

noncomputable section

namespace Cert.KernelIdeal.Value

open Cert.KernelIdeal Cert.KernelIdeal.Gen Cert.KernelIdeal.HostChain Cert.KernelIdeal.Whole
open Idealize.ShloMosaic Idealize.ShloMosaic.TcCoe Idealize.ShloMosaic.StableHlo Cert.Sage

variable (m : (ℓ : Loc nD τ sig) → Buf (Elt Ideal) ℓ) (ρ : Dev nD → PrngReg)

/-- The arguments as launched. -/
abbrev aX (c : Dev nD) : (⟨S100000x128, .f32⟩ : BufTy).Contents (Elt Ideal) := m ((c.tc : Thread nD τ).loc main_arg0)
abbrev aE (c : Dev nD) : (⟨S2x1600000, .i32⟩ : BufTy).Contents (Elt Ideal) := m ((c.tc : Thread nD τ).loc main_arg1)
abbrev aW1l (c : Dev nD) : (⟨S128x128, .f32⟩ : BufTy).Contents (Elt Ideal) := m ((c.tc : Thread nD τ).loc main_arg2)
abbrev aW1r (c : Dev nD) : (⟨S128x128, .f32⟩ : BufTy).Contents (Elt Ideal) := m ((c.tc : Thread nD τ).loc main_arg3)
abbrev aB1 (c : Dev nD) : (⟨S128, .f32⟩ : BufTy).Contents (Elt Ideal) := m ((c.tc : Thread nD τ).loc main_arg4)
abbrev aW2l (c : Dev nD) : (⟨S128x41, .f32⟩ : BufTy).Contents (Elt Ideal) := m ((c.tc : Thread nD τ).loc main_arg5)
abbrev aW2r (c : Dev nD) : (⟨S128x41, .f32⟩ : BufTy).Contents (Elt Ideal) := m ((c.tc : Thread nD τ).loc main_arg6)
abbrev aB2 (c : Dev nD) : (⟨S41, .f32⟩ : BufTy).Contents (Elt Ideal) := m ((c.tc : Thread nD τ).loc main_arg7)

/-! ## What the first region finds -/

theorem V1_x (c : Dev nD) : (V1 m ρ c main_arg0 : S100000x128.Idx → EReal) = aX m c := by
  dsimp only [V1, W1, hostOps0]
  after_results

set_option maxHeartbeats 4000000 in
theorem V1_nbr (c : Dev nD) : (V1 m ρ c main_v18 : S100000x128.Idx → EReal) = nbrSum (aX m c) (aE m c) := by
  dsimp only [V1, W1, hostOps0]
  after_results_simp
  rfl

theorem V1_deg (c : Dev nD) : (V1 m ρ c main_v8 : S100000x1.Idx → EReal) = degCol (aE m c) := by
  dsimp only [V1, W1, hostOps0]
  after_results
  rfl

theorem V1_wl (c : Dev nD) : (V1 m ρ c main_v20 : S128x128.Idx → EReal) = aW1l m c := by
  dsimp only [V1, W1, hostOps0]
  after_results
  rfl

theorem V1_wr (c : Dev nD) : (V1 m ρ c main_v21 : S128x128.Idx → EReal) = aW1r m c := by
  dsimp only [V1, W1, hostOps0]
  after_results
  rfl

theorem V1_b (c : Dev nD) : (V1 m ρ c main_v19 : S1x128.Idx → EReal) = shapeCast S1x128 (aB1 m c) Facts₀.shapeCasts_S128_S1x128 := by
  dsimp only [V1, W1, hostOps0]
  after_results
  rfl

/-- The first region's result array: the hidden features. -/
theorem hidden_array (c : Dev nD) :
    (dat0 (V1 m ρ) c).arrAt 6 cfg0.N = hidOf (aX m c) (aE m c) (aW1l m c) (aW1r m c) (aB1 m c) := by
  rw [Blocks0.final]
  unfold Blocks0.H hidOf
  rw [V1_x, V1_nbr, V1_deg, V1_wl, V1_wr, V1_b]

/-! ## What the first region leaves, read where the later operations read it -/

/-- The hidden features, in the first region's result array. -/
theorem W2_hid (c : Dev nD) :
    (W2 m ρ c (Proc.devRef .tc main_v22) : S100000x128.Idx → EReal) = hidOf (aX m c) (aE m c) (aW1l m c) (aW1r m c) (aB1 m c) :=
  (W2_arr m ρ c 6).trans (hidden_array m ρ c)

/-- The degree column is an operand of the first region: it is left as entered. -/
theorem W2_deg (c : Dev nD) : (W2 m ρ c (Proc.devRef .tc main_v8) : S100000x1.Idx → EReal) = degCol (aE m c) :=
  ((W2_arr m ρ c 2).trans (((dat0 (V1 m ρ) c).arrAt_in 2 rfl _).trans (A_eq0 (V1 m ρ) c 2))).trans (V1_deg m ρ c)

theorem W2_src (c : Dev nD) : (W2 m ρ c (Proc.devRef .tc main_v1) : S1600000.Idx → BitVec 32) = srcVec (aE m c) := by
  rw [W2_of_ne m ρ c main_v1 (by decide)]
  dsimp only [W1, hostOps0]
  after_results
  rfl

theorem W2_dst (c : Dev nD) : (W2 m ρ c (Proc.devRef .tc main_v3) : S1600000.Idx → BitVec 32)
    = shapeCast _ (extractStridedSlice S1x1600000 ![1, 0] (aE m c) Facts₀.slices_S2x1600000_S1x1600000_1_0) Facts₀.shapeCasts_S1x1600000_S1600000 := by
  rw [W2_of_ne m ρ c main_v3 (by decide)]
  dsimp only [W1, hostOps0]
  after_results
  rfl

theorem W2_w2l (c : Dev nD) : (W2 m ρ c (Proc.devRef .tc main_arg5) : S128x41.Idx → EReal) = aW2l m c := by
  rw [W2_of_ne m ρ c main_arg5 (by decide)]
  dsimp only [W1, hostOps0]
  after_results

theorem W2_w2r (c : Dev nD) : (W2 m ρ c (Proc.devRef .tc main_arg6) : S128x41.Idx → EReal) = aW2r m c := by
  rw [W2_of_ne m ρ c main_arg6 (by decide)]
  dsimp only [W1, hostOps0]
  after_results

theorem W2_b2 (c : Dev nD) : (W2 m ρ c (Proc.devRef .tc main_arg7) : S41.Idx → EReal) = aB2 m c := by
  rw [W2_of_ne m ρ c main_arg7 (by decide)]
  dsimp only [W1, hostOps0]
  after_results

/-! ## What the second region finds -/

theorem V3_hid (c : Dev nD) :
    (V3 m ρ c main_v22 : S100000x128.Idx → EReal) = hidOf (aX m c) (aE m c) (aW1l m c) (aW1r m c) (aB1 m c) := by
  dsimp only [V3, W3, hostOps1]
  after_results
  exact W2_hid m ρ c

set_option maxHeartbeats 4000000 in
theorem V3_nbr (c : Dev nD) :
    (V3 m ρ c main_v32 : S100000x128.Idx → EReal) = nbrSum (hidOf (aX m c) (aE m c) (aW1l m c) (aW1r m c) (aB1 m c)) (aE m c) := by
  dsimp only [V3, W3, hostOps1]
  after_results_simp
  rw [W2_hid, W2_src, W2_dst]
  rfl

theorem V3_deg (c : Dev nD) : (V3 m ρ c main_v8 : S100000x1.Idx → EReal) = degCol (aE m c) := by
  dsimp only [V3, W3, hostOps1]
  after_results
  exact W2_deg m ρ c

theorem V3_wl (c : Dev nD) : (V3 m ρ c main_v34 : S128x41.Idx → EReal) = aW2l m c := by
  dsimp only [V3, W3, hostOps1]
  after_results
  rw [W2_w2l]
  rfl

theorem V3_wr (c : Dev nD) : (V3 m ρ c main_v35 : S128x41.Idx → EReal) = aW2r m c := by
  dsimp only [V3, W3, hostOps1]
  after_results
  rw [W2_w2r]
  rfl

theorem V3_b (c : Dev nD) : (V3 m ρ c main_v33 : S1x41.Idx → EReal) = shapeCast S1x41 (aB2 m c) Facts₀.shapeCasts_S41_S1x41 := by
  dsimp only [V3, W3, hostOps1]
  after_results
  rw [W2_b2]
  rfl

/-! ## The result -/

/-- The program's result array after the run is the network's function of the arguments as launched. -/
theorem result (c : Dev nD) :
    (W4 m ρ c (Proc.devRef .tc main_v36) : S100000x41.Idx → EReal)
      = outOf (aX m c) (aE m c) (aW1l m c) (aW1r m c) (aB1 m c) (aW2l m c) (aW2r m c) (aB2 m c) := by
  rw [show W4 m ρ c (Proc.devRef .tc main_v36) = (dat1 (V3 m ρ) c).arrAt 6 cfg1.N from W4_arr m ρ c 6, Blocks1.final]
  unfold Blocks1.H outOf
  rw [V3_hid, V3_nbr, V3_deg, V3_wl, V3_wr, V3_b]

end Cert.KernelIdeal.Value

end
-- ==== Proof.RefValue.lean ====
/-
  What the reference computes: the network's function of the eight arguments.

  The reference forms each layer on the host: the neighbour sums divided, entry by entry, by the degree cut off below at
  one and spread over the columns; that quotient through one matrix and the features through the other, each product a
  sum over the 128 contracted coordinates; the bias spread over the rows; for the hidden layer the maximum with zero.
  Read at (r, q) this is the layer's entry of row r and column q. The neighbour sums and the degree are the same host
  operations as the kernel program's, so they are the same arrays.
-/
import proofs.«169006_j39822936768930_1_alg».proof.Proof.Gen.ReferenceIdeal.Read
import proofs.«169006_j39822936768930_1_alg».proof.Proof.Whole
import Idealize.ShloMosaic.Lib.ValueLayout

set_option maxRecDepth 16384

noncomputable section

open scoped BigOperators

namespace Cert.ReferenceIdeal.RefValue

open Cert.ReferenceIdeal Cert.ReferenceIdeal.Read Idealize.ShloMosaic Idealize.ShloMosaic.ValueIdx Cert.Sage
open Cert.KernelIdeal.HostChain Cert.KernelIdeal.Whole

/-! ## The host chains are the reference's stages -/

theorem nbr1 (x0 : (⟨S100000x128, .f32⟩ : BufTy).Contents (Elt Ideal)) (x1 : (⟨S2x1600000, .i32⟩ : BufTy).Contents (Elt Ideal)) :
    nbrSum x0 x1 = val_main_v13 (F := Ideal) x0 x1 := rfl

theorem deg1 (x1 : (⟨S2x1600000, .i32⟩ : BufTy).Contents (Elt Ideal)) :
    degCol x1 = broadcastInDim S100000x1 ![0] Facts₀.bcast_S100000_S100000x1_0 (val_main_v17 (F := Ideal) x1) := rfl

theorem deg2 (x1 : (⟨S2x1600000, .i32⟩ : BufTy).Contents (Elt Ideal)) :
    degCol x1 = broadcastInDim S100000x1 ![0] Facts₀.bcast_S100000_S100000x1_0 (val_main_v43 (F := Ideal) x1) := rfl

theorem nbr2 (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    nbrSum (val_main_v29 (F := Ideal) x0 x1 x2 x3 x4) x1 = val_main_v39 (F := Ideal) x0 x1 x2 x3 x4 := rfl

/-! ## Where the reference's layout operations read -/

theorem l23 (r : Fin 100000) (q k : Fin 128) : lidx_main_v23 (ix2 r q) k = ix2 r k :=
  funext fun a => Fin.ext (by match a with | ⟨0, _⟩ => rfl | ⟨1, _⟩ => rfl)
theorem r23 (r : Fin 100000) (q k : Fin 128) : ridx_main_v23 (ix2 r q) k = ix2 k q :=
  funext fun a => Fin.ext (by match a with | ⟨0, _⟩ => rfl | ⟨1, _⟩ => rfl)
theorem l24 (r : Fin 100000) (q k : Fin 128) : lidx_main_v24 (ix2 r q) k = ix2 r k :=
  funext fun a => Fin.ext (by match a with | ⟨0, _⟩ => rfl | ⟨1, _⟩ => rfl)
theorem r24 (r : Fin 100000) (q k : Fin 128) : ridx_main_v24 (ix2 r q) k = ix2 k q :=
  funext fun a => Fin.ext (by match a with | ⟨0, _⟩ => rfl | ⟨1, _⟩ => rfl)
theorem i21 (r : Fin 100000) (k : Fin 128) : idx_main_v21 (ix2 r k) = ix2 r (0 : Fin 1) :=
  funext fun a => Fin.ext (by match a with | ⟨0, _⟩ => rfl | ⟨1, _⟩ => rfl)
theorem i20 (r : Fin 100000) : idx_main_v20 (ix2 r (0 : Fin 1)) = ix1 r :=
  funext fun a => Fin.ext (by match a with | ⟨0, _⟩ => rfl)
theorem i27 (r : Fin 100000) (q : Fin 128) : idx_main_v27 (ix2 r q) = ix2 (0 : Fin 1) q :=
  funext fun a => Fin.ext (by match a with | ⟨0, _⟩ => rfl | ⟨1, _⟩ => rfl)
theorem i26 (q : Fin 128) : idx_main_v26 (ix2 (0 : Fin 1) q) = ix1 q :=
  funext fun a => Fin.ext (by match a with | ⟨0, _⟩ => rfl)

theorem l49 (r : Fin 100000) (q : Fin 41) (k : Fin 128) : lidx_main_v49 (ix2 r q) k = ix2 r k :=
  funext fun a => Fin.ext (by match a with | ⟨0, _⟩ => rfl | ⟨1, _⟩ => rfl)
theorem r49 (r : Fin 100000) (q : Fin 41) (k : Fin 128) : ridx_main_v49 (ix2 r q) k = ix2 k q :=
  funext fun a => Fin.ext (by match a with | ⟨0, _⟩ => rfl | ⟨1, _⟩ => rfl)
theorem l50 (r : Fin 100000) (q : Fin 41) (k : Fin 128) : lidx_main_v50 (ix2 r q) k = ix2 r k :=
  funext fun a => Fin.ext (by match a with | ⟨0, _⟩ => rfl | ⟨1, _⟩ => rfl)
theorem r50 (r : Fin 100000) (q : Fin 41) (k : Fin 128) : ridx_main_v50 (ix2 r q) k = ix2 k q :=
  funext fun a => Fin.ext (by match a with | ⟨0, _⟩ => rfl | ⟨1, _⟩ => rfl)
theorem i47 (r : Fin 100000) (k : Fin 128) : idx_main_v47 (ix2 r k) = ix2 r (0 : Fin 1) :=
  funext fun a => Fin.ext (by match a with | ⟨0, _⟩ => rfl | ⟨1, _⟩ => rfl)
theorem i46 (r : Fin 100000) : idx_main_v46 (ix2 r (0 : Fin 1)) = ix1 r :=
  funext fun a => Fin.ext (by match a with | ⟨0, _⟩ => rfl)
theorem i53 (r : Fin 100000) (q : Fin 41) : idx_main_v53 (ix2 r q) = ix2 (0 : Fin 1) q :=
  funext fun a => Fin.ext (by match a with | ⟨0, _⟩ => rfl | ⟨1, _⟩ => rfl)
theorem i52 (q : Fin 41) : idx_main_v52 (ix2 (0 : Fin 1) q) = ix1 q :=
  funext fun a => Fin.ext (by match a with | ⟨0, _⟩ => rfl)

/-- The degree column at row r is the degree vector at r. -/
theorem deg_read {α : Type} (y : S100000.Idx → α) (r : Fin 100000) :
    broadcastInDim S100000x1 ![0] Facts₀.bcast_S100000_S100000x1_0 y (ix2 r (0 : Fin 1)) = y (ix1 r) :=
  broadcastInDim_apply _ Facts₀.bcast_S100000_S100000x1_0 y _ (ix1 r) (fun a => match a with
    | ⟨0, _⟩ => by show r.val = if (100000 : Nat) = 1 then 0 else r.val; rw [if_neg (by decide)])

/-! ## The hidden layer, stage by stage -/

section Layer1

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 : (⟨S128, .f32⟩ : BufTy).Contents (Elt Ideal))

/-- The divisor at (r, k): the degree of node r, cut off below at one. -/
theorem den1 (r : Fin 100000) (k : Fin 128) :
    val_main_v21 (F := Ideal) x1 (ix2 r k) = max (val_main_v17 (F := Ideal) x1 (ix1 r)) one := by
  rw [val_main_v21_apply, i21, val_main_v20_apply, i20, val_main_v19_apply, val_main_v18_apply, val_main_cst_3_apply]
  rfl

/-- The mean of the neighbours' rows at (r, k). -/
theorem quot1 (r : Fin 100000) (k : Fin 128) :
    val_main_v22 (F := Ideal) x0 x1 (ix2 r k)
      = Ideal.div (val_main_v13 (F := Ideal) x0 x1 (ix2 r k)) (max (val_main_v17 (F := Ideal) x1 (ix1 r)) one) := by
  rw [val_main_v22_apply, den1]
  rfl

/-- The mean through the first matrix at (r, q). -/
theorem dotl1 (r : Fin 100000) (q : Fin 128) :
    val_main_v23 (F := Ideal) x0 x1 x2 (ix2 r q)
      = ∑ k : Fin 128, Ideal.div (val_main_v13 (F := Ideal) x0 x1 (ix2 r k)) (max (val_main_v17 (F := Ideal) x1 (ix1 r)) one) * x2 (ix2 k q) := by
  rw [val_main_v23_apply]
  refine Finset.sum_congr rfl fun k _ => ?_
  rw [l23, r23, quot1]

/-- The node's own row through the second matrix at (r, q). -/
theorem dotr1 (r : Fin 100000) (q : Fin 128) :
    val_main_v24 (F := Ideal) x0 x3 (ix2 r q) = ∑ k : Fin 128, x0 (ix2 r k) * x3 (ix2 k q) := by
  rw [val_main_v24_apply]
  refine Finset.sum_congr rfl fun k _ => ?_
  rw [l24, r24]

/-- The bias at (r, q). -/
theorem bias1 (r : Fin 100000) (q : Fin 128) : val_main_v27 (F := Ideal) x4 (ix2 r q) = x4 (ix1 q) := by
  rw [val_main_v27_apply, i27, val_main_v26_apply, i26]

/-- The cut-off at (r, q) is zero. -/
theorem zero1 (r : Fin 100000) (q : Fin 128) : val_main_call0_v0 (F := Ideal) (ix2 r q) = zero := by
  rw [val_main_call0_v0_apply, val_main_call0_cst_apply]
  rfl

/-- The reference's hidden features are the network's. -/
theorem hid_ref : val_main_v29 (F := Ideal) x0 x1 x2 x3 x4 = hidOf x0 x1 x2 x3 x4 := by
  funext i
  obtain ⟨r, q, rfl⟩ : ∃ (r : Fin 100000) (q : Fin 128), i = ix2 r q := ⟨i 0, i 1, eq_ix2 i⟩
  rw [val_main_v29_apply, val_main_v28_apply, val_main_v25_apply, dotl1, dotr1, bias1, zero1]
  unfold hidOf
  rw [hidden_ix2]
  unfold cell
  rw [nbr1, deg1, deg_read, shapeCast_a_1a_apply (a := 128)]
  rfl

end Layer1

/-! ## The output layer, stage by stage -/

section Layer2

variable (x0 : (⟨S100000x128, .f32⟩ : BufTy).Contents (Elt Ideal)) (x1 : (⟨S2x1600000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x41, .f32⟩ : BufTy).Contents (Elt Ideal)) (x7 : (⟨S41, .f32⟩ : BufTy).Contents (Elt Ideal))

/-- The divisor at (r, k): the degree of node r, cut off below at one. -/
theorem den2 (r : Fin 100000) (k : Fin 128) :
    val_main_v47 (F := Ideal) x1 (ix2 r k) = max (val_main_v43 (F := Ideal) x1 (ix1 r)) one := by
  rw [val_main_v47_apply, i47, val_main_v46_apply, i46, val_main_v45_apply, val_main_v44_apply, val_main_cst_9_apply]
  rfl

/-- The mean of the neighbours' hidden rows at (r, k). -/
theorem quot2 (r : Fin 100000) (k : Fin 128) :
    val_main_v48 (F := Ideal) x0 x1 x2 x3 x4 (ix2 r k)
      = Ideal.div (val_main_v39 (F := Ideal) x0 x1 x2 x3 x4 (ix2 r k)) (max (val_main_v43 (F := Ideal) x1 (ix1 r)) one) := by
  rw [val_main_v48_apply, den2]
  rfl

/-- The mean through the first matrix at (r, q). -/
theorem dotl2 (r : Fin 100000) (q : Fin 41) :
    val_main_v49 (F := Ideal) x0 x1 x2 x3 x4 x5 (ix2 r q)
      = ∑ k : Fin 128, Ideal.div (val_main_v39 (F := Ideal) x0 x1 x2 x3 x4 (ix2 r k)) (max (val_main_v43 (F := Ideal) x1 (ix1 r)) one) * x5 (ix2 k q) := by
  rw [val_main_v49_apply]
  refine Finset.sum_congr rfl fun k _ => ?_
  rw [l49, r49, quot2]

/-- The node's own hidden row through the second matrix at (r, q). -/
theorem dotr2 (r : Fin 100000) (q : Fin 41) :
    val_main_v50 (F := Ideal) x0 x1 x2 x3 x4 x6 (ix2 r q)
      = ∑ k : Fin 128, val_main_v29 (F := Ideal) x0 x1 x2 x3 x4 (ix2 r k) * x6 (ix2 k q) := by
  rw [val_main_v50_apply]
  refine Finset.sum_congr rfl fun k _ => ?_
  rw [l50, r50]

/-- The bias at (r, q). -/
theorem bias2 (r : Fin 100000) (q : Fin 41) : val_main_v53 (F := Ideal) x7 (ix2 r q) = x7 (ix1 q) := by
  rw [val_main_v53_apply, i53, val_main_v52_apply, i52]

/-- The reference's result is the network's. -/
theorem out_ref : val_main_v54 (F := Ideal) x0 x1 x2 x3 x4 x5 x6 x7 = outOf x0 x1 x2 x3 x4 x5 x6 x7 := by
  funext i
  obtain ⟨r, q, rfl⟩ : ∃ (r : Fin 100000) (q : Fin 41), i = ix2 r q := ⟨i 0, i 1, eq_ix2 i⟩
  rw [val_main_v54_apply, val_main_v51_apply, dotl2, dotr2, bias2]
  unfold outOf
  rw [outer_ix2]
  unfold cell
  rw [← hid_ref, nbr2, deg2, deg_read, shapeCast_a_1a_apply (a := 41)]
  rfl

end Layer2

end Cert.ReferenceIdeal.RefValue

end
-- ==== Proof.lean ====
/-
  A two-layer graph network (neighbourhood mean, two linear maps and a bias per layer, a cut-off at zero between the
  layers) computed two ways: the kernel program forms each layer in a kernel region, 4000 rows of nodes per grid point,
  and leaves the neighbour sums to host operations around the regions; the reference forms everything on the host.

  Both end with the same array, entry by entry, as extended reals. A layer's entry at (r, q) depends on row r of the
  node data and column q of the weights only, so a block of rows gives the same entries as the whole array; a matrix
  product from a zero accumulator is the host's contraction, both the plain sum over the 128 contracted coordinates; a
  change of float format is the identity on exact values; and the neighbour sums and degrees are the same host
  operations in both programs, applied to equal arrays. No law of arithmetic beyond these is used, so the inputs'
  finiteness is never opened.

  The three frames: the two kernel programs' are the generated frame certificates; the reference's is its generated
  run with the result dropped. The idealization rewrote no operation, so there is nothing to preserve.
-/
import proofs.«169006_j39822936768930_1_alg».proof.Defs
import proofs.«169006_j39822936768930_1_alg».proof.Proof.Gen.Kernel
import proofs.«169006_j39822936768930_1_alg».proof.Proof.Gen.Kernel.Frame
import proofs.«169006_j39822936768930_1_alg».proof.Proof.Gen.KernelIdeal
import proofs.«169006_j39822936768930_1_alg».proof.Proof.Gen.KernelIdeal.Frame
import proofs.«169006_j39822936768930_1_alg».proof.Proof.Gen.ReferenceIdeal
import proofs.«169006_j39822936768930_1_alg».proof.Proof.Gen.ReferenceIdeal.Run
import proofs.«169006_j39822936768930_1_alg».proof.Proof.Gen.ReferenceIdeal.Read
import proofs.«169006_j39822936768930_1_alg».proof.Proof.Gen.Pre_finite_inputs
import proofs.«169006_j39822936768930_1_alg».proof.Proof.KernelRun
import proofs.«169006_j39822936768930_1_alg».proof.Proof.KernelValue
import proofs.«169006_j39822936768930_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's function of the (agreeing) arguments. -/
theorem algebraic : Cert.algebraic_KernelIdeal_ReferenceIdeal := by
  intro m ρ m' ρ' _ hagree
  refine ⟨fun c => Cert.KernelIdeal.Whole.outOf (Cert.KernelIdeal.Value.aX m c) (Cert.KernelIdeal.Value.aE m c)
    (Cert.KernelIdeal.Value.aW1l m c) (Cert.KernelIdeal.Value.aW1r m c) (Cert.KernelIdeal.Value.aB1 m c)
    (Cert.KernelIdeal.Value.aW2l m c) (Cert.KernelIdeal.Value.aW2r m c) (Cert.KernelIdeal.Value.aB2 m c), ?_, ?_⟩
  · exact (θ_run Cert.KernelIdeal.defs _ _).mono
      (fun r h c => ⟨(h c).1.trans (Cert.KernelIdeal.Value.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v54_eq, Cert.ReferenceIdeal.RefValue.out_ref, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
